-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S2048x512 : Shape := ⟨2, ![2048, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S65536x512 .f32) (main_arg1 : FVec F S2048x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S65536x512 : Shape := ⟨2, ![65536, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S65536x2048 : Shape := ⟨2, ![65536, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S2048x512, .f32⟩
  | .hbm, ⟨2, _⟩ => ⟨S2048x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S1x2048, .f32⟩
  | .hbm, ⟨7, _⟩ => ⟨S2048x512, .bf16⟩
  | .hbm, ⟨8, _⟩ => ⟨S65536x2048, .f32⟩
  | .local _ .vmem, ⟨0, _⟩ => ⟨S512x512, .f32⟩
  | .local _ .vmem, ⟨1, _⟩ => ⟨S512x512, .f32⟩
  | .local _ .vmem, ⟨2, _⟩ => ⟨S2048x512, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S65536x512.size a
  hwx0_0 : ∀ i : grid0.Coords, EltTy.bits .f32 = 32 ∨ (Rect.block (s := S65536x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S65536x2048.size a
  hwx0_3 : ∀ i : grid0.Coords, EltTy.bits .f32 = 32 ∨ (Rect.block (s := S65536x2048) S512x2048.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S2048x512 : Shape := ⟨2, ![2048, 512]⟩
abbrev S_ : Shape := ⟨0, ![]⟩
abbrev S65536 : Shape := ⟨1, ![65536]⟩
abbrev S65536x1 : Shape := ⟨2, ![65536, 1]⟩
abbrev S2048 : Shape := ⟨1, ![2048]⟩
abbrev S1x2048 : Shape := ⟨2, ![1, 2048]⟩
abbrev S65536x2048 : Shape := ⟨2, ![65536, 2048]⟩

abbrev nBuf : Space → Nat
  | .hbm => 23
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S2048x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S65536x2048, .f32⟩
  | .hbm, ⟨11, _⟩ => ⟨S_, .f32⟩
  | .hbm, ⟨12, _⟩ => ⟨S65536x2048, .f32⟩
  | .hbm, ⟨13, _⟩ => ⟨S65536x2048, .f32⟩
  | .hbm, ⟨14, _⟩ => ⟨S65536x2048, .f32⟩
  | .hbm, ⟨15, _⟩ => ⟨S65536x2048, .f32⟩
  | .hbm, ⟨16, _⟩ => ⟨S65536x2048, .f32⟩
  | .hbm, ⟨17, _⟩ => ⟨S65536x2048, .f32⟩
  | .hbm, ⟨18, _⟩ => ⟨S_, .f32⟩
  | .hbm, ⟨19, _⟩ => ⟨S65536x2048, .f32⟩
  | .hbm, ⟨20, _⟩ => ⟨S65536x2048, .f32⟩
  | .hbm, ⟨21, _⟩ => ⟨S65536x2048, .f32⟩
  | .hbm, ⟨22, _⟩ => ⟨S65536x2048, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  reducesTo_S2048x512_S2048_d1 : S2048x512.ReducesTo [1] S2048
  bcast_S2048_S1x2048_1 : S2048.BroadcastsInDim S1x2048 (![1] : Fin 1 → Fin S1x2048.rank)
  bcast_S_S65536x2048 : S_.BroadcastsInDim S65536x2048 (![] : Fin 0 → Fin S65536x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  dot_S65536x512_S2048x512_S65536x2048_1_1_0_0_n_n_wf : DotDims.WF S65536x512 S2048x512 S65536x2048 [1] [1] [0] [0] [] []

variable [Facts₀]

def dot_S65536x512_S2048x512_S65536x2048_1_1_0_0_n_n : DotDims S65536x512 S2048x512 S65536x2048 where
  lhsContracting := [1]
  rhsContracting := [1]
  lhsNonContracting := [0]
  rhsNonContracting := [0]
  lhsBatch := []
  rhsBatch := []
  wf := dot_S65536x512_S2048x512_S65536x2048_1_1_0_0_n_n_wf

class Facts : Prop extends Facts₀ where

variable [Facts]
-- ==== Proof.Spec.lean ====
/-
  The function both programs compute. For embeddings `X : [65536, 512]` and prototypes `P : [2048, 512]`, entry
  `(n, p)` of the result is minus the Euclidean distance from row `n` of `X` to row `p` of `P`, taken through the
  expansion |x − p|² = |x|² − 2·x·p + |p|² and clamped below at zero before the square root:

      −√( max( (Σₖ X[n,k]² − 2 · Σₖ X[n,k]·P[p,k]) + Σₖ P[p,k]², 0 ) ).

  Everything is read on the extended reals. The three sums are sums over the 512 coordinates of a row; the grouping of
  the three terms is the one written above, and no distributive law is used anywhere, so nothing here asks the
  entries to be finite. The word for the factor 2 is kept as written and never evaluated.
-/
import Idealize.ShloMosaic.PureOps.Ideal
import Idealize.ShloMosaic.PureOps.Ideal.Laws
import Idealize.ShloMosaic.Lib.ValueIdx

noncomputable section

namespace Cert.NegDist

open Idealize.ShloMosaic Idealize.ShloMosaic.ValueIdx

/-- One entry from its three sums: the squared norm `sx` of the embedding row, the inner product `cr` of the two rows,
    the squared norm `sp` of the prototype row. -/
def entry (sx cr sp : EReal) : EReal :=
  -Ideal.sqrt (max ((sx - (Ideal.ofBits .f32 0x40000000#32 : EReal) * cr) + sp) 0)

/-- The squared norm of row `n` of the embeddings. -/
def sqNormX (X : (⟨2, ![65536, 512]⟩ : Shape).Idx → EReal) (n : Fin 65536) : EReal :=
  ∑ k : Fin 512, X (ix2 n k) * X (ix2 n k)

/-- The squared norm of row `p` of the prototypes. -/
def sqNormP (P : (⟨2, ![2048, 512]⟩ : Shape).Idx → EReal) (p : Fin 2048) : EReal :=
  ∑ k : Fin 512, P (ix2 p k) * P (ix2 p k)

/-- The inner product of row `n` of the embeddings with row `p` of the prototypes. -/
def cross (X : (⟨2, ![65536, 512]⟩ : Shape).Idx → EReal) (P : (⟨2, ![2048, 512]⟩ : Shape).Idx → EReal)
    (n : Fin 65536) (p : Fin 2048) : EReal :=
  ∑ k : Fin 512, X (ix2 n k) * P (ix2 p k)

/-- Entry `(n, p)`. -/
def negDistAt (X : (⟨2, ![65536, 512]⟩ : Shape).Idx → EReal) (P : (⟨2, ![2048, 512]⟩ : Shape).Idx → EReal)
    (n : Fin 65536) (p : Fin 2048) : EReal :=
  entry (sqNormX X n) (cross X P n p) (sqNormP P p)

/-- The whole result array, index by index. -/
def negDist (X : (⟨2, ![65536, 512]⟩ : Shape).Idx → EReal) (P : (⟨2, ![2048, 512]⟩ : Shape).Idx → EReal) :
    (⟨2, ![65536, 2048]⟩ : Shape).Idx → EReal :=
  fun i => negDistAt X P ⟨(i 0).val, idx2_lt0 i⟩ ⟨(i 1).val, idx2_lt1 i⟩

/-- The result at an index whose two coordinates are `n` and `p`. -/
theorem negDist_apply (X : (⟨2, ![65536, 512]⟩ : Shape).Idx → EReal) (P : (⟨2, ![2048, 512]⟩ : Shape).Idx → EReal)
    (i : (⟨2, ![65536, 2048]⟩ : Shape).Idx) (n : Fin 65536) (p : Fin 2048) (hn : (i 0).val = n.val) (hp : (i 1).val = p.val) :
    negDist X P i = negDistAt X P n p := by
  unfold negDist
  rw [show (⟨(i 0).val, idx2_lt0 i⟩ : Fin 65536) = n from Fin.ext hn,
    show (⟨(i 1).val, idx2_lt1 i⟩ : Fin 2048) = p from Fin.ext hp]

/-- Subtracting from the zero word is negation: the form in which the kernel body writes the final sign. -/
theorem zero_word_sub (a : EReal) : (Ideal.ofBits .f32 0x00000000#32 : EReal) - a = -a := by
  rw [Ideal.ofBits_zero_f32, zero_sub]

/-- The clamp against the zero word is the clamp against zero. -/
theorem max_zero_word (a : EReal) : max a (Ideal.ofBits .f32 0x00000000#32 : EReal) = max a 0 := by
  rw [Ideal.ofBits_zero_f32]

/-- A sum started from the zero word is the sum. -/
theorem zero_word_add (a : EReal) : (Ideal.ofBits .f32 0x00000000#32 : EReal) + a = a := by
  rw [Ideal.ofBits_zero_f32, zero_add]

end Cert.NegDist

end
-- ==== Proof.RefValue.lean ====
/-
  The reference computes `negDist`. Its program is read one operation at a time; at entry `i = (n, p)` the chain is: the
  negation of the square root of the maximum with the zero word of

      (spread of the row sums of X·X at n − 2 · the product of X with P contracted over the coordinates at (n, p))
        + spread of the row sums of P·P at p,

  each row sum begun from the zero word. The composed index functions of the layout steps are the rows named by the
  two coordinates of `i`.
-/
import proofs.«145839_j15015205667287_2_alg».proof.Proof.Gen.ReferenceIdeal.Read
import proofs.«145839_j15015205667287_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Through the two spreads, the row of the embeddings' norms read at `i` is row `i 0`. -/
theorem idx_x (i : S65536x2048.Idx) (k : Fin 512) :
    idx_main_v1 (idx_main_v2 (idx_main_v9 i)) k = ix2 (⟨(i 0).val, idx2_lt0 i⟩ : Fin 65536) k :=
  funext fun a => Fin.ext (by match a with | ⟨0, _⟩ => rfl | ⟨1, _⟩ => rfl)

/-- Through the two spreads, the row of the prototypes' norms read at `i` is row `i 1`. -/
theorem idx_p (i : S65536x2048.Idx) (k : Fin 512) :
    idx_main_v4 (idx_main_v5 (idx_main_v11 i)) k = ix2 (⟨(i 1).val, idx2_lt1 i⟩ : Fin 2048) k :=
  funext fun a => Fin.ext (by match a with | ⟨0, _⟩ => rfl | ⟨1, _⟩ => rfl)

/-- The product's left factor at `i` and coordinate `k` sits in row `i 0` of the embeddings, -/
theorem idx_l (i : S65536x2048.Idx) (k : Fin 512) :
    lidx_main_v6 i k = ix2 (⟨(i 0).val, idx2_lt0 i⟩ : Fin 65536) k :=
  funext fun a => Fin.ext (by match a with | ⟨0, _⟩ => rfl | ⟨1, _⟩ => rfl)

/-- and its right factor in row `i 1` of the prototypes. -/
theorem idx_r (i : S65536x2048.Idx) (k : Fin 512) :
    ridx_main_v6 i k = ix2 (⟨(i 1).val, idx2_lt1 i⟩ : Fin 2048) k :=
  funext fun a => Fin.ext (by match a with | ⟨0, _⟩ => rfl | ⟨1, _⟩ => rfl)

/-- THE REFERENCE'S RESULT, as a function of its two arguments, is `negDist`. -/
theorem result_eq (x0 : (⟨S65536x512, .f32⟩ : BufTy).Contents (Elt Ideal)) (x1 : (⟨S2048x512, .f32⟩ : BufTy).Contents (Elt Ideal)) :
    val_main_v16 (F := Ideal) x0 x1 = Cert.NegDist.negDist x0 x1 := by
  funext i
  rw [val_main_v16_apply, val_main_v15_apply, val_main_v14_apply, val_main_v12_apply, val_main_v10_apply,
    val_main_v9_apply, val_main_v2_apply, val_main_v1_apply, val_main_v8_apply, val_main_v7_apply, val_main_v6_apply,
    val_main_v11_apply, val_main_v5_apply, val_main_v4_apply, val_main_v13_apply]
  simp only [val_main_v0_apply, val_main_v3_apply, val_main_cst_apply, val_main_cst_0_apply, val_main_cst_1_apply,
    val_main_cst_2_apply, idx_x, idx_p, idx_l, idx_r, Ideal.hostNegf_def, Ideal.negf_def, Ideal.hostUnary_sqrt_def,
    Ideal.maximumf_def, Ideal.addf_def, Ideal.subf_def, Ideal.mulf_def, Ideal.ofBits_def, Cert.NegDist.zero_word_add,
    Cert.NegDist.max_zero_word]
  rfl

end Cert.ReferenceIdeal.RefValue

end
-- ==== Proof.Payload.lean ====
/-
  What the kernel body stores at one entry of its output block, as a function of the three blocks it loads.

  The body loads a [512, 512] block `x0` of embeddings, the whole [2048, 512] prototype table `x1` and the [1, 2048] row
  `x2` of prototype squared norms, and stores, at entry `(r, q)` of its [512, 2048] block,

      0 − √( max( (Σₖ x0[r,k]² − 2 · Σₖ x0[r,k]·x1[q,k]) + x2[0,q], 0 ) ).

  Three pieces of the body are not entry-by-entry operations: the sum of squares along a row, kept as a column and
  spread over the 2048 columns (`rowNorms`); the matrix product of the block with the transposed table, contracted over
  the 512 coordinates, into a zero accumulator (`products`); the row of prototype norms spread over the 512 rows
  (`protoNorms`). Each is read here at `(r, q)`; the rest of the body acts entry by entry and unfolds by definition. The
  narrowing of the block to a shorter float format before the product is the identity on the extended reals.
-/
import proofs.«145839_j15015205667287_2_alg».proof.Proof.Gen.KernelIdeal.Skeleton
import proofs.«145839_j15015205667287_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The squared norms of the block's rows, as the body forms them: the sum along each row, cast to a column, spread over
    the columns of the output block. -/
def rowNorms (x0 : FVec Ideal S512x512 .f32) : FVec Ideal S512x2048 .f32 :=
  broadcastTo S512x2048
    (shapeCast S512x1
      (multiReduction (F := Ideal) .add [1] S512 (mulf x0 x0) 0x00000000#32 reduces_S512x512_S512 (.inl rfl) rfl)
      shapeCasts_S512_S512x1)
    broadcasts_S512x1_S512x2048

/-- The inner products of the block's rows with the table's rows: the matrix product, contracted over the second axis of
    both, added into zero. -/
def products (x0 : FVec Ideal S512x512 .f32) (x1 : FVec Ideal S2048x512 .bf16) : FVec Ideal S512x2048 .f32 :=
  matmul dot_S512x512_S2048x512_S512x2048_1_1_0_0_n_n none (truncf .bf16 x0 bitsLt_bf16_f32)
    (shapeCast S2048x512 x1 shapeCasts_S2048x512_S2048x512) (constant (F := Ideal) S512x2048 .f32 0x00000000#32)

/-- The prototype norms spread over the rows of the output block. -/
def protoNorms (x2 : FVec Ideal S1x2048 .f32) : FVec Ideal S512x2048 .f32 :=
  broadcastTo S512x2048 (shapeCast S1x2048 x2 shapeCasts_S1x2048_S1x2048) broadcasts_S1x2048_S512x2048

/-- The stored value is, entry by entry, the expansion over those three arrays. -/
theorem stored_split (x0 : FVec Ideal S512x512 .f32) (x1 : FVec Ideal S2048x512 .bf16) (x2 : FVec Ideal S1x2048 .f32)
    (j : S512x2048.Idx) :
    k0_pay1 (F := Ideal) x0 x1 x2 j
      = (Ideal.ofBits .f32 0x00000000#32 : EReal)
          - Ideal.sqrt (max ((rowNorms x0 j - (Ideal.ofBits .f32 0x40000000#32 : EReal) * products x0 x1 j) + protoNorms x2 j)
              (Ideal.ofBits .f32 0x00000000#32 : EReal)) := rfl

/-- The row norms at `(r, q)`: the sum of the squares of row `r`. -/
theorem rowNorms_apply (x0 : FVec Ideal S512x512 .f32) (r : Fin 512) (q : Fin 2048) :
    rowNorms x0 (ix2 r q) = ∑ k : Fin 512, x0 (ix2 r k) * x0 (ix2 r k) := by
  unfold rowNorms
  refine (broadcastTo_apply _ broadcasts_S512x1_S512x2048 (ix2 r q) (ix2 r (0 : Fin 1)) (fun a => ?_)).trans ?_
  · match a with
    | ⟨0, _⟩ => show r.val = if (512 : Nat) = 1 then 0 else r.val; rw [if_neg (by decide)]
    | ⟨1, _⟩ => show 0 = if (1 : Nat) = 1 then 0 else q.val; rw [if_pos rfl]
  refine (shapeCast_apply _ shapeCasts_S512_S512x1 (ix2 r (0 : Fin 1)) (ix1 r) ?_).trans ?_
  · rw [Shape.rowMajor_val_one, Shape.rowMajor_val_two]
    show r.val = r.val * 1 + 0
    omega
  refine (Ideal.multiReduction_add_single (mulf x0 x0) 0x00000000#32 reduces_S512x512_S512 (.inl rfl) rfl (ix1 r)).trans ?_
  exact Finset.sum_congr rfl fun k _ => congrArg (fun i => x0 i * x0 i)
    (funext fun a => Fin.ext (by match a with | ⟨0, _⟩ => rfl | ⟨1, _⟩ => rfl))

/-- The left operand's index at output index `i` and contraction index `c`: row of `i`, coordinate `c`. -/
theorem lhs_0 (i : S512x2048.Idx) (c : dot_S512x512_S2048x512_S512x2048_1_1_0_0_n_n.contr.Idx) :
    (dot_S512x512_S2048x512_S512x2048_1_1_0_0_n_n.lhsIdx i c 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem lhs_1 (i : S512x2048.Idx) (c : dot_S512x512_S2048x512_S512x2048_1_1_0_0_n_n.contr.Idx) :
    (dot_S512x512_S2048x512_S512x2048_1_1_0_0_n_n.lhsIdx i c 1).val = (c ⟨0, by decide⟩).val :=
  dot_S512x512_S2048x512_S512x2048_1_1_0_0_n_n.lhsIdx_val_of_single rfl i c
/-- The right operand's: column of `i` as the table's row, coordinate `c`. -/
theorem rhs_0 (i : S512x2048.Idx) (c : dot_S512x512_S2048x512_S512x2048_1_1_0_0_n_n.contr.Idx) :
    (dot_S512x512_S2048x512_S512x2048_1_1_0_0_n_n.rhsIdx i c 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
theorem rhs_1 (i : S512x2048.Idx) (c : dot_S512x512_S2048x512_S512x2048_1_1_0_0_n_n.contr.Idx) :
    (dot_S512x512_S2048x512_S512x2048_1_1_0_0_n_n.rhsIdx i c 1).val = (c ⟨0, by decide⟩).val :=
  dot_S512x512_S2048x512_S512x2048_1_1_0_0_n_n.rhsIdx_val_of_single rfl i c

/-- The products at `(r, q)`: the inner product of row `r` of the block with row `q` of the table. -/
theorem products_apply (x0 : FVec Ideal S512x512 .f32) (x1 : FVec Ideal S2048x512 .bf16) (r : Fin 512) (q : Fin 2048) :
    products x0 x1 (ix2 r q) = ∑ k : Fin 512, x0 (ix2 r k) * x1 (ix2 q k) := by
  unfold products
  refine (Ideal.matmul_constant_zero_apply dot_S512x512_S2048x512_S512x2048_1_1_0_0_n_n none _ _ (ix2 r q)).trans ?_
  rw [← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r q)
      ((contrEquiv1 dot_S512x512_S2048x512_S512x2048_1_1_0_0_n_n 512 rfl rfl).symm k) = ix2 r k :=
    funext fun a => Fin.ext (by
      match a with
      | ⟨0, _⟩ => exact lhs_0 _ _
      | ⟨1, _⟩ => exact (lhs_1 _ _).trans hk)
  have er : dot_S512x512_S2048x512_S512x2048_1_1_0_0_n_n.rhsIdx (ix2 r q)
      ((contrEquiv1 dot_S512x512_S2048x512_S512x2048_1_1_0_0_n_n 512 rfl rfl).symm k) = ix2 q k :=
    funext fun a => Fin.ext (by
      match a with
      | ⟨0, _⟩ => exact rhs_0 _ _
      | ⟨1, _⟩ => exact (rhs_1 _ _).trans hk)
  rw [el, er, shapeCast_self]
  rfl

/-- The prototype norms at `(r, q)`: entry `q` of the one row. -/
theorem protoNorms_apply (x2 : FVec Ideal S1x2048 .f32) (r : Fin 512) (q : Fin 2048) :
    protoNorms x2 (ix2 r q) = x2 (ix2 (0 : Fin 1) q) := by
  unfold protoNorms
  rw [shapeCast_self]
  exact broadcastTo_1b_ab_apply x2 broadcasts_S1x2048_S512x2048 r q

/-- THE STORED VALUE at `(r, q)`, from the loaded blocks. -/
theorem stored_apply (x0 : FVec Ideal S512x512 .f32) (x1 : FVec Ideal S2048x512 .bf16) (x2 : FVec Ideal S1x2048 .f32)
    (r : Fin 512) (q : Fin 2048) :
    k0_pay1 (F := Ideal) x0 x1 x2 (ix2 r q)
      = Cert.NegDist.entry (∑ k : Fin 512, x0 (ix2 r k) * x0 (ix2 r k)) (∑ k : Fin 512, x0 (ix2 r k) * x1 (ix2 q k))
          (x2 (ix2 (0 : Fin 1) q)) := by
  rw [stored_split, rowNorms_apply, products_apply, protoNorms_apply, Cert.NegDist.zero_word_sub,
    Cert.NegDist.max_zero_word]
  rfl

/-- The same at any index of the block, its two coordinates named. -/
theorem stored_at (x0 : FVec Ideal S512x512 .f32) (x1 : FVec Ideal S2048x512 .bf16) (x2 : FVec Ideal S1x2048 .f32)
    (j : S512x2048.Idx) (r : Fin 512) (q : Fin 2048) (hr : (j 0).val = r.val) (hq : (j 1).val = q.val) :
    k0_pay1 (F := Ideal) x0 x1 x2 j
      = Cert.NegDist.entry (∑ k : Fin 512, x0 (ix2 r k) * x0 (ix2 r k)) (∑ k : Fin 512, x0 (ix2 r k) * x1 (ix2 q k))
          (x2 (ix2 (0 : Fin 1) q)) := by
  obtain rfl : j = ix2 r q := funext fun a => Fin.ext (by
    match a with
    | ⟨0, _⟩ => exact hr
    | ⟨1, _⟩ => exact hq)
  exact stored_apply x0 x1 x2 r q

end Cert.KernelIdeal.Body

end
-- ==== Proof.HostSide.lean ====
/-
  What the kernel's region finds in the two arrays the host computed before launching it.

  Before the region the host squares the prototypes entry by entry, sums each row from the zero word, spreads the 2048
  sums as a column and transposes the column into a [1, 2048] row: entry `(0, q)` of that row is the squared norm of
  prototype `q`. It also narrows the prototype table to a shorter float format, which on the extended reals changes
  nothing: entry `(q, k)` of the narrowed table is entry `(q, k)` of the prototypes.
-/
import proofs.«145839_j15015205667287_2_alg».proof.Proof.Gen.KernelIdeal.Frame
import proofs.«145839_j15015205667287_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostSide

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The prototypes as launched, as a function of the index. -/
abbrev protos (c : Dev nD) : S2048x512.Idx → EReal := m ((c : Thread nD τ).loc main_arg1)
/-- The narrowed table as the region finds it. -/
abbrev tableAt (c : Dev nD) : S2048x512.Idx → EReal := V m c main_v4
/-- The row of norms as the region finds it. -/
abbrev normsAt (c : Dev nD) : S1x2048.Idx → EReal := V m c main_v3

/-- The table the region stages is the prototypes, narrowed. -/
theorem table_eq (c : Dev nD) :
    tableAt m c = truncf (F := Ideal) .bf16 (protos m c) bitsLt_bf16_f32 := by
  dsimp only [tableAt, protos, Gen.V, Gen.hostOps0]
  after_results

/-- So its entry `(q, k)` is the prototypes'. -/
theorem table_apply (c : Dev nD) (i : S2048x512.Idx) : tableAt m c i = protos m c i := by
  rw [table_eq]
  rfl

/-- The row of norms the region stages, as the host's operations of the prototypes. -/
theorem norms_eq (c : Dev nD) :
    normsAt m c
      = transpose S1x2048 [1, 0]
          (broadcastInDim S2048x1 ![0] bcast_S2048_S2048x1_0
            (Host.reduceAdd (F := Ideal) (mulf (F := Ideal) (φ := .f32) (protos m c) (protos m c))
              (constant (F := Ideal) S_ .f32 0x00000000#32) reducesTo_S2048x512_S2048_d1 h_S_))
          transposes_S2048x1_S1x2048_1_0 := by
  dsimp only [normsAt, protos, Gen.V, Gen.hostOps0]
  after_results

/-- A row sum on the host, begun from the zero word, is the sum over the row's 512 coordinates. -/
theorem rowSum_apply (y : S2048x512.Idx → EReal) (q : Fin 2048) :
    Host.reduceAdd (F := Ideal) y (constant (F := Ideal) S_ .f32 0x00000000#32) reducesTo_S2048x512_S2048_d1 h_S_ (ix1 q)
      = ∑ k : Fin 512, y (ix2 q k) := by
  simp only [Host.reduceAdd, Ideal.hostReduceAdd_def]
  rw [Ideal.hostReduceAdd_single reducesTo_S2048x512_S2048_d1 (by decide)]
  refine (congrArg (_ + ·) (Finset.sum_congr rfl fun k _ => ?_)).trans (Cert.NegDist.zero_word_add _)
  exact congrArg y (funext fun a => Fin.ext (by match a with | ⟨0, _⟩ => rfl | ⟨1, _⟩ => rfl))

/-- Entry `(0, q)` of the staged row is the squared norm of prototype `q`. -/
theorem norms_apply (c : Dev nD) (q : Fin 2048) :
    normsAt m c (ix2 (0 : Fin 1) q) = ∑ k : Fin 512, protos m c (ix2 q k) * protos m c (ix2 q k) := by
  rw [norms_eq]
  refine (transpose_ix2_apply _ transposes_S2048x1_S1x2048_1_0 (0 : Fin 1) q).trans ?_
  refine (broadcastInDim_apply _ bcast_S2048_S2048x1_0 _ (ix2 q (0 : Fin 1)) (ix1 q) (fun a => ?_)).trans ?_
  · match a with
    | ⟨0, _⟩ => show q.val = if (2048 : Nat) = 1 then 0 else q.val; rw [if_neg (by decide)]
  exact rowSum_apply _ q

end Cert.KernelIdeal.HostSide

end
-- ==== Proof.Whole.lean ====
/-
  From blocks to the whole array: after the kernel's run the result array is `negDist` of the two arguments.

  The grid has 128 points. At point `t` the body is given rows `512·t … 512·t + 511` of the embeddings (all 512 columns),
  the whole narrowed prototype table and the whole row of prototype norms, and what it stores is written back to rows
  `512·t … 512·t + 511` of the result (all 2048 columns). So entry `(r, q)` of what point `t` writes back is the stored
  value at `(r, q)` with the block's row `r` being row `512·t + r` of the embeddings, the table's row `q` being
  prototype `q`, and the norms' entry `q` being the squared norm of prototype `q`: that is entry `(512·t + r, q)` of
  `negDist`. Row `n` of the result lies in the block of point `n / 512`, so the 128 blocks cover the array.
-/
import proofs.«145839_j15015205667287_2_alg».proof.Proof.Gen.KernelIdeal.Value
import proofs.«145839_j15015205667287_2_alg».proof.Proof.Payload
import proofs.«145839_j15015205667287_2_alg».proof.Proof.HostSide
import proofs.«145839_j15015205667287_2_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.HostSide (protos tableAt normsAt)

variable (m : (ℓ : Loc nD τ sig) → Buf (Elt Ideal) ℓ) (ρ : Dev nD → PrngReg)

theorem zeroOffsets : (![0, 0] : Fin 2 → Nat) = fun _ => 0 := funext fun a => by fin_cases a <;> rfl

/-- The embeddings as launched, as a function of the index. -/
abbrev embs (c : Dev nD) : S65536x512.Idx → EReal := m ((c : Thread nD τ).loc main_arg0)

/-- What the result array ends holding. -/
abbrev result (c : Dev nD) : S65536x2048.Idx → EReal := Cert.NegDist.negDist (embs m c) (protos m c)

/-- The block indices over the grid: at point `t` the embeddings' window and the result's window are at block row `t`,
    column block 0; the table's and the norms' windows never move. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `y` of the embeddings' block at point `t` is entry `(512·t + y₀, y₁)` of the embeddings. -/
theorem embBlock_apply (c : Dev nD) (t : Fin cfg0.N) (y : S512x512.Idx) (n : Fin 65536) (k : Fin 512)
    (hn : n.val = t.val * 512 + (y 0).val) (hk : k.val = (y 1).val) :
    (iblk m c 0 t : S512x512.Idx → EReal) y = embs m c (ix2 n k) := by
  obtain ⟨e0, e1, -⟩ := index_facts t
  unfold iblk
  rw [View.read_apply]
  show V m c main_arg0 (((cfg0.win 0).blk t).view.emb y) = _
  rw [V_main_arg0]
  refine congrArg (embs m c) (funext fun a => Fin.ext ?_)
  match a with
  | ⟨0, _⟩ => show win0_0.index t (0 : Fin 2) * 512 + 1 * (y 0).val = n.val; rw [e0, hn]; omega
  | ⟨1, _⟩ => show win0_0.index t (1 : Fin 2) * 512 + 1 * (y 1).val = k.val; rw [e1, hk]; omega

/-- The table's block at any point is the whole table: entry `y` is the prototypes' entry `y`. -/
theorem tableBlock_apply (c : Dev nD) (t : Fin cfg0.N) (y : S2048x512.Idx) :
    (iblk m c 1 t : S2048x512.Idx → EReal) y = protos m c y := by
  obtain ⟨-, -, e0, e1, -⟩ := index_facts t
  unfold iblk
  rw [View.read_apply]
  show tableAt m c (((cfg0.win 1).blk t).view.emb y) = _
  rw [HostSide.table_apply]
  refine congrArg (protos m c) (funext fun a => Fin.ext ?_)
  match a with
  | ⟨0, _⟩ => show win0_1.index t (0 : Fin 2) * 2048 + 1 * (y 0).val = (y 0).val; rw [e0]; omega
  | ⟨1, _⟩ => show win0_1.index t (1 : Fin 2) * 512 + 1 * (y 1).val = (y 1).val; rw [e1]; omega

/-- The norms' block at any point is the whole row: entry `(0, q)` is the squared norm of prototype `q`. -/
theorem normsBlock_apply (c : Dev nD) (t : Fin cfg0.N) (q : Fin 2048) :
    (iblk m c 2 t : S1x2048.Idx → EReal) (ix2 (0 : Fin 1) q)
      = ∑ k : Fin 512, protos m c (ix2 q k) * protos m c (ix2 q k) := by
  obtain ⟨-, -, -, -, e0, e1, -⟩ := index_facts t
  unfold iblk
  rw [View.read_apply]
  show normsAt m c (((cfg0.win 2).blk t).view.emb (ix2 (0 : Fin 1) q)) = _
  rw [← HostSide.norms_apply m c q]
  refine congrArg (normsAt m c) (funext fun a => Fin.ext ?_)
  match a with
  | ⟨0, _⟩ => show win0_2.index t (0 : Fin 2) * 1 + 1 * 0 = 0; rw [e0]
  | ⟨1, _⟩ => show win0_2.index t (1 : Fin 2) * 2048 + 1 * q.val = q.val; rw [e1]; omega

/-- WHAT POINT `t` WRITES BACK is block `t` of `result`. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zeroOffsets]
  simp only [View.ld_unit_zero (S := S512x512) zeroOffsets, View.ld_unit_zero (S := S2048x512) zeroOffsets,
    View.ld_unit_zero (S := S1x2048) zeroOffsets]
  obtain ⟨-, -, -, -, -, -, e0, e1⟩ := index_facts t
  have ht : t.val < 128 := Nat.lt_of_lt_of_eq t.isLt N_0
  funext j
  have hj0 : (j 0).val < 512 := (j 0).isLt
  have hj1 : (j 1).val < 2048 := (j 1).isLt
  rw [View.read_apply]
  show k0_pay1 (F := Ideal) (iblk m c 0 t) (iblk m c 1 t) (iblk m c 2 t) j = result m c (((cfg0.win 3).blk t).view.emb j)
  have hX : ∀ k : Fin 512, (iblk m c 0 t : S512x512.Idx → EReal) (ix2 (⟨(j 0).val, hj0⟩ : Fin 512) k)
      = embs m c (ix2 (⟨t.val * 512 + (j 0).val, by omega⟩ : Fin 65536) k) :=
    fun k => embBlock_apply m c t (ix2 (⟨(j 0).val, hj0⟩ : Fin 512) k) ⟨t.val * 512 + (j 0).val, by omega⟩ k rfl rfl
  have hP : ∀ k : Fin 512, (iblk m c 1 t : S2048x512.Idx → EReal) (ix2 (⟨(j 1).val, hj1⟩ : Fin 2048) k)
      = protos m c (ix2 (⟨(j 1).val, hj1⟩ : Fin 2048) k) :=
    fun k => tableBlock_apply m c t (ix2 (⟨(j 1).val, hj1⟩ : Fin 2048) k)
  have hN := normsBlock_apply m c t ⟨(j 1).val, hj1⟩
  refine (Cert.KernelIdeal.Body.stored_at (iblk m c 0 t) (iblk m c 1 t) (iblk m c 2 t) j ⟨(j 0).val, hj0⟩ ⟨(j 1).val, hj1⟩
    rfl rfl).trans ?_
  refine Eq.trans ?_ (Cert.NegDist.negDist_apply (embs m c) (protos m c) (((cfg0.win 3).blk t).view.emb j)
    ⟨t.val * 512 + (j 0).val, by omega⟩ ⟨(j 1).val, hj1⟩ ?_ ?_).symm
  · unfold Cert.NegDist.negDistAt Cert.NegDist.sqNormX Cert.NegDist.cross Cert.NegDist.sqNormP
    simp only [hX, hP, hN]
  · show win0_3.index t (0 : Fin 2) * 512 + 1 * (j 0).val = t.val * 512 + (j 0).val
    rw [e0]; omega
  · show win0_3.index t (1 : Fin 2) * 2048 + 1 * (j 1).val = (j 1).val
    rw [e1]; omega

/-- An index of the result is in point `t`'s block iff each coordinate is in the block's range on its axis. -/
theorem mem_block (t : Fin cfg0.N) (i : S65536x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v5).slice (win0_3.rect t)).set ↔ _
  rw [View.set_slice_whole, Rect.mem_set_unit]
  exact Iff.rfl

/-- Every index of the result is in the block of the point its row falls to. -/
theorem covered (i : S65536x2048.Idx) :
    ∃ t : Fin cfg0.N, (cfg0.win 3).flush t = true ∧ i ∈ ((cfg0.win 3).blk t).view.set := by
  have hi0 : (i 0).val < 65536 := (i 0).isLt
  have hi1 : (i 1).val < 2048 := (i 1).isLt
  have hN : cfg0.N = 128 := N_0
  obtain ⟨t, ht⟩ : ∃ t : Fin cfg0.N, t.val = (i 0).val / 512 := ⟨⟨(i 0).val / 512, by rw [hN]; omega⟩, rfl⟩
  obtain ⟨-, -, -, -, -, -, e0, e1⟩ := index_facts t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 2048 ≤ (i 1).val ∧ (i 1).val < win0_3.index t (1 : Fin 2) * 2048 + 2048
    rw [e1]; omega

/-- THE RESULT ARRAY after the run. -/
theorem final (c : Dev nD) : (dats m 0 c).arrAt 3 cfg0.N = result m c :=
  (dats m 0 c).arrAt_eq_of_cover 3 (result m c) (fun t _ => flushed_eq m c t) covered

/-- The kernel's run: the result array ends at `negDist` of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.lean ====
/-
  The certificate: a kernel computing the negated Euclidean distances between 65536 embeddings and 2048 prototypes
  (512 coordinates each), tile by tile over 128 row blocks, against the same formula written with whole-array
  operations.

  Both programs form, for embedding `n` and prototype `p`,

      −√( max( (Σₖ X[n,k]² − 2 · Σₖ X[n,k]·P[p,k]) + Σₖ P[p,k]², 0 ) ),

  with the same grouping of the three terms and the same words for 2 and 0. On the extended reals the differences
  between them vanish: the kernel narrows the embeddings and the prototypes to a shorter float format before its
  matrix product, which is the identity there; its matrix product into a zero accumulator and the reference's
  contraction are the same sum over the 512 coordinates; its sum along a row and the reference's row reduction begun
  from zero are the same sum; its final `0 − d` is the reference's `−d`; the kernel's square root and maximum are the
  reference's. The kernel's prototype norms are computed once before the region as a column and transposed into a row,
  the reference's directly as a row: the same 2048 numbers. No law is used that fails at an infinity, so the
  precondition (every input finite) is never opened.

  The frames are the generated ones; the reference's frame is its generated run with the result dropped. The
  idealization rewrote nothing, so the fourth conjunct is `True`. The fifth sets the kernel's run, read from its blocks to
  the whole array (`Whole.run`), beside the reference's run read one operation at a time (`RefValue.result_eq`), both at
  `Cert.NegDist.negDist` of arguments that agree.
-/
import proofs.«145839_j15015205667287_2_alg».proof.Defs
import proofs.«145839_j15015205667287_2_alg».proof.Proof.Gen.Kernel
import proofs.«145839_j15015205667287_2_alg».proof.Proof.Gen.Kernel.Skeleton
import proofs.«145839_j15015205667287_2_alg».proof.Proof.Gen.Kernel.Launch
import proofs.«145839_j15015205667287_2_alg».proof.Proof.Gen.Kernel.Points
import proofs.«145839_j15015205667287_2_alg».proof.Proof.Gen.Kernel.Frame
import proofs.«145839_j15015205667287_2_alg».proof.Proof.Gen.KernelIdeal
import proofs.«145839_j15015205667287_2_alg».proof.Proof.Gen.KernelIdeal.Skeleton
import proofs.«145839_j15015205667287_2_alg».proof.Proof.Gen.KernelIdeal.Launch
import proofs.«145839_j15015205667287_2_alg».proof.Proof.Gen.KernelIdeal.Points
import proofs.«145839_j15015205667287_2_alg».proof.Proof.Gen.KernelIdeal.Frame
import proofs.«145839_j15015205667287_2_alg».proof.Proof.Gen.ReferenceIdeal
import proofs.«145839_j15015205667287_2_alg».proof.Proof.Gen.Pre_finite_inputs
import proofs.«145839_j15015205667287_2_alg».proof.Proof.Gen.KernelIdeal.Value
import proofs.«145839_j15015205667287_2_alg».proof.Proof.Gen.ReferenceIdeal.Run
import proofs.«145839_j15015205667287_2_alg».proof.Proof.Gen.ReferenceIdeal.Read
import proofs.«145839_j15015205667287_2_alg».proof.Proof.Spec
import proofs.«145839_j15015205667287_2_alg».proof.Proof.RefValue
import proofs.«145839_j15015205667287_2_alg».proof.Proof.Whole
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories agreeing on the embeddings and the prototypes, both programs end with the array of negated
    distances `negDist` of those two arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
